-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) (main_arg1 : FVec F S8192x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  main_v8
-- ==== Kernel.lean ====
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S1024x512 : Shape := ⟨2, ![1024, 512]⟩
abbrev S1024x1 : Shape := ⟨2, ![1024, 1]⟩
abbrev S1x1024 : Shape := ⟨2, ![1, 1024]⟩
abbrev S1024x1024 : Shape := ⟨2, ![1024, 1024]⟩
abbrev S512x1024 : Shape := ⟨2, ![512, 1024]⟩

abbrev nBuf : Space → Nat
  | .hbm => 14
  | .vmem => 10
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x512, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S1x8192, .f32⟩
  | .hbm, ⟨11, _⟩ => ⟨S8192x512, .bf16⟩
  | .hbm, ⟨12, _⟩ => ⟨S8192x512, .bf16⟩
  | .hbm, ⟨13, _⟩ => ⟨S8192x8192, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  transposes_S8192x1_S1x8192_1_0 : S8192x1.Transposes [1, 0] S1x8192
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  transposes_S1024x512_p1_0_S512x1024 : S1024x512.Transposes [1, 0] S512x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .bf16 = 32 ∨ (Rect.block (s := S8192x512) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x512.size a
  hwx0_1 : ∀ i : grid0.Coords, EltTy.bits .bf16 = 32 ∨ (Rect.block (s := S8192x512) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x8192.size a
  hwx0_4 : ∀ i : grid0.Coords, EltTy.bits .f32 = 32 ∨ (Rect.block (s := S8192x8192) S1024x1024.size (cc0_transform_4 i) (hinb0_4 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v7) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x512 : Shape := ⟨2, ![8192, 512]⟩
abbrev S_ : Shape := ⟨0, ![]⟩
abbrev S8192 : Shape := ⟨1, ![8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 25
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S8192x512, .f32⟩
  | .hbm, ⟨6, _⟩ => ⟨S_, .f32⟩
  | .hbm, ⟨7, _⟩ => ⟨S8192, .f32⟩
  | .hbm, ⟨8, _⟩ => ⟨S8192x8192, .f32⟩
  | .hbm, ⟨9, _⟩ => ⟨S8192x1, .f32⟩
  | .hbm, ⟨10, _⟩ => ⟨S1x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x8192, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x512_S8192x512_S8192x8192_1_1_0_0_n_n_wf : DotDims.WF S8192x512 S8192x512 S8192x8192 [1] [1] [0] [0] [] []

variable [Facts₀]

def dot_S8192x512_S8192x512_S8192x8192_1_1_0_0_n_n : DotDims S8192x512 S8192x512 S8192x8192 where
  lhsContracting := [1]
  rhsContracting := [1]
  lhsNonContracting := [0]
  rhsNonContracting := [0]
  lhsBatch := []
  rhsBatch := []
  wf := dot_S8192x512_S8192x512_S8192x8192_1_1_0_0_n_n_wf

class Facts : Prop extends Facts₀ where

variable [Facts]
-- ==== Proof.GramSpec.lean ====
/-
  The Gaussian kernel matrix of two sets of points, as ONE function of the two arrays.

  The points are the rows of two 8192 × 512 arrays `a` and `b` over the extended reals. Entry `(p, q)` of the
  8192 × 8192 result is

      exp ( −1 · max ( (‖a_p‖² + ‖b_q‖²) − 2 · ⟨a_p, b_q⟩ , 0 ) )

  where ‖x_r‖² = 0 + ∑ₖ x[r,k]·x[r,k] is the squared length of row `r` (summed from the zero word, as both programs sum it)
  and ⟨a_p, b_q⟩ = ∑ₖ a[p,k]·b[q,k] is the inner product of row `p` of `a` with row `q` of `b`: the squared distance
  ‖a_p − b_q‖² expanded, clamped at zero, negated and exponentiated. The three scalars −1, 2 and 0 are kept as the
  32-bit words both programs spell; the same word on both sides is never evaluated.

  Both programs compute exactly this expression, in this grouping, so no law of the extended reals is needed to
  join them: what differs is only where each piece is computed and how it is laid out.
-/
import Idealize.ShloMosaic.PureOps.Ideal
import Idealize.ShloMosaic.Lib.ValueIdx

noncomputable section

namespace Cert.Gram

open Idealize.ShloMosaic Idealize.ShloMosaic.ValueIdx

/-- A set of 8192 points with 512 coordinates each. -/
abbrev Points : Type := FVec Ideal ⟨2, ![8192, 512]⟩ .f32

/-- The squared length of row `r`: the zero word plus the sum of the squares of its 512 coordinates. -/
def sqNorm (x : Points) (r : Fin 8192) : EReal :=
  Ideal.ofBits .f32 0x00000000#32 + ∑ k : Fin 512, x (ix2 r k) * x (ix2 r k)

/-- The inner product of row `p` of `a` with row `q` of `b`. -/
def inner (a b : Points) (p q : Fin 8192) : EReal :=
  ∑ k : Fin 512, a (ix2 p k) * b (ix2 q k)

/-- Entry `(p, q)` of the kernel matrix. -/
def entry (a b : Points) (p q : Fin 8192) : EReal :=
  Ideal.exp (Ideal.ofBits .f32 0xBF800000#32
    * max (sqNorm a p + sqNorm b q - Ideal.ofBits .f32 0x40000000#32 * inner a b p q) (Ideal.ofBits .f32 0x00000000#32))

/-- The kernel matrix: entry `(i 0, i 1)` at the index `i`. -/
def gram (a b : Points) : FVec Ideal ⟨2, ![8192, 8192]⟩ .f32 := fun i => entry a b (i 0) (i 1)

theorem gram_apply (a b : Points) (p q : Fin 8192) : gram a b (ix2 p q) = entry a b p q := rfl

end Cert.Gram

end
-- ==== Proof.RefGram.lean ====
/-
  The reference computes the kernel matrix.

  Read one operation at a time, the reference's result at the index `(p, q)` is the exponential of −1 times the
  clamped expression whose three pieces are: the row sums of `a ∘ a` and of `b ∘ b`, each spread back over the
  matrix (the first along the rows, the second along the columns), and twice the `dot_general` of `a` and `b`
  contracted over their second axes. Each piece read at `(p, q)` depends on row `p` of `a` and row `q` of `b` only:
  the broadcasts drop the coordinate they do not use, and the contraction pairs `a[p,k]` with `b[q,k]`.
  These are the three pieces of `Cert.Gram.entry`, in its grouping.
-/
import proofs.«141454_j65481071406148_2_alg».proof.Proof.Gen.ReferenceIdeal.Read
import proofs.«141454_j65481071406148_2_alg».proof.Proof.GramSpec

noncomputable section

namespace Cert.ReferenceIdeal.RefValue

open Cert.ReferenceIdeal Cert.ReferenceIdeal.Read Idealize.ShloMosaic Idealize.ShloMosaic.ValueIdx Cert.Gram

/-- Row `p` of the first operand's squares: the index the row sum of `a ∘ a`, spread along the rows, reads at `(p, q)`. -/
theorem idx_rowsq (p q : Fin 8192) (k : Fin 512) :
    idx_main_v1 (idx_main_v5 (idx_main_v7 (ix2 p q))) k = ix2 p k :=
  funext fun a => Fin.ext (by match a with | ⟨0, _⟩ => rfl | ⟨1, _⟩ => rfl)

/-- Row `q` of the second operand's squares: the index the row sum of `b ∘ b`, spread along the columns, reads at `(p, q)`. -/
theorem idx_colsq (p q : Fin 8192) (k : Fin 512) :
    idx_main_v3 (idx_main_v6 (idx_main_v8 (ix2 p q))) k = ix2 q k :=
  funext fun a => Fin.ext (by match a with | ⟨0, _⟩ => rfl | ⟨1, _⟩ => rfl)

/-- The contraction's left factor at `(p, q)` and `k` is `a[p, k]`. -/
theorem idx_lhs (p q : Fin 8192) (k : Fin 512) : lidx_main_v4 (ix2 p q) k = ix2 p k :=
  funext fun a => Fin.ext (by match a with | ⟨0, _⟩ => rfl | ⟨1, _⟩ => rfl)

/-- The contraction's right factor at `(p, q)` and `k` is `b[q, k]`. -/
theorem idx_rhs (p q : Fin 8192) (k : Fin 512) : ridx_main_v4 (ix2 p q) k = ix2 q k :=
  funext fun a => Fin.ext (by match a with | ⟨0, _⟩ => rfl | ⟨1, _⟩ => rfl)

/-- The reference's last stage is the kernel matrix of its two arguments. -/
theorem ref_is_gram (x0 x1 : Points) : val_main_v17 (F := Ideal) x0 x1 = gram x0 x1 := by
  funext i
  obtain ⟨p, q, rfl⟩ : ∃ (p q : Fin 8192), i = ix2 p q := ⟨i 0, i 1, eq_ix2 i⟩
  rw [val_main_v17_apply, val_main_v16_apply, val_main_v15_apply, val_main_cst_3_apply, val_main_v14_apply,
    val_main_v13_apply, val_main_cst_2_apply, val_main_v12_apply, val_main_v11_apply, val_main_v10_apply,
    val_main_cst_1_apply, val_main_v4_apply, val_main_v9_apply, val_main_v7_apply, val_main_v5_apply,
    val_main_v1_apply, val_main_v8_apply, val_main_v6_apply, val_main_v3_apply]
  simp only [idx_rowsq, idx_colsq, idx_lhs, idx_rhs, val_main_v0_apply, val_main_v2_apply, val_main_cst_apply,
    val_main_cst_0_apply, Ideal.hostUnary_exp_def, Ideal.mulf_def, Ideal.maximumf_def, Ideal.subf_def, Ideal.addf_def,
    Ideal.ofBits_def]
  rfl

end Cert.ReferenceIdeal.RefValue

end
-- ==== Proof.LibKeepdims.lean ====
/-
  Column layouts and a lane sum read at an index.

  A sum over the last axis that keeps its dimension leaves a column: the [a] vector of row sums viewed as [a, 1],
  then spread along the rows of an [a, b] array. Read at `(p, c)` that array holds the sum of row `p`, whatever the
  column `c`. The lemmas here say so one layout step at a time, for every extent:
  • `shapeCast_a_a1_apply`: a vector [a] viewed as a column [a, 1] reads, at `(p, 0)`, the vector at `p`;
  • `broadcastTo_a1_ab_apply`: a column [a, 1] spread to [a, b] reads, at `(p, c)`, the column at `(p, 0)`;
  • `laneSum_apply`: over the extended reals, the sum of an [a, b] array along its last axis reads, at `p`, the
    finite sum over `k < b` of the array at `(p, k)`.
  Together with the library's row forms ([a] viewed as [1, a], a row [1, b] spread to [a, b]) these read every
  `sum(axis = -1, keepdims = True)` a kernel body broadcasts back over its block.
-/
import Idealize.ShloMosaic.Lib.Pipeline.Value
import Idealize.ShloMosaic.Lib.ValueIdx
import Idealize.ShloMosaic.PureOps.Ideal.Laws

noncomputable section

namespace Cert.Lib.Keepdims

open Idealize.ShloMosaic Idealize.ShloMosaic.ValueIdx

variable {α : Type}

/-- A vector [a] viewed as a column [a, 1]: entry `(p, u)` of the column is entry `p` of the vector (row-major
    position `p · 1 + 0 = p`). -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column [a, 1] spread along the rows of an [a, b] array: entry `(p, c)` is the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Over the extended reals the sum of an [a, b] array along its last axis, read at row `p`, is `∑ k < b` of the
    array at `(p, k)`: the reduced index with the summed coordinate put back is `(p, k)`. -/
theorem laneSum_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (funext fun d => Fin.ext (by
      match d with
      | ⟨0, _⟩ => rfl
      | ⟨1, _⟩ => rfl)))

end Cert.Lib.Keepdims

end
-- ==== Proof.BlockValue.lean ====
/-
  One block of the kernel matrix, as the kernel body computes it.

  At a grid point the body holds a block of 1024 rows of `a`, a block of 1024 rows of `b`, the squared lengths of
  those rows of `a` as a column [1024, 1] and of those rows of `b` as a row [1, 1024]. Entry `(p, q)` of what it stores is

      exp ( −1 · max ( (col[p,0] + row[0,q]) − 2 · ∑ₖ A[p,k]·B[q,k] , 0 ) ).

  The column spread over the block reads its row's entry, the row spread over the block its column's entry; the matrix
  product of the `a` block with the TRANSPOSED `b` block, into a zero accumulator, is at `(p, q)` the sum over the
  512 coordinates of `A[p,k] · Bᵀ[k,q] = A[p,k] · B[q,k]`: the contraction's one index is that coordinate.
-/
import proofs.«141454_j65481071406148_2_alg».proof.Proof.Gen.KernelIdeal.Skeleton
import proofs.«141454_j65481071406148_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.BlockValue

open Cert.KernelIdeal Cert.KernelIdeal.Gen Idealize.ShloMosaic Idealize.ShloMosaic.ValueIdx

/-! ## The two spread vectors -/

/-- The column of squared lengths spread over the block reads, at `(p, q)`, the column's entry of row `p`. -/
theorem colSpread_apply (v4 : FVec Ideal S1024x1 .f32) (p q : Fin 1024) :
    broadcastTo S1024x1024 (shapeCast S1024x1 v4 shapeCasts_S1024x1_S1024x1) broadcasts_S1024x1_S1024x1024 (ix2 p q)
      = v4 (ix2 p (0 : Fin 1)) := by
  rw [shapeCast_self]
  exact Cert.Lib.Keepdims.broadcastTo_a1_ab_apply v4 broadcasts_S1024x1_S1024x1024 p q

/-- The row of squared lengths spread over the block reads, at `(p, q)`, the row's entry of column `q`. -/
theorem rowSpread_apply (v6 : FVec Ideal S1x1024 .f32) (p q : Fin 1024) :
    broadcastTo S1024x1024 (shapeCast S1x1024 v6 shapeCasts_S1x1024_S1x1024) broadcasts_S1x1024_S1024x1024 (ix2 p q)
      = v6 (ix2 (0 : Fin 1) q) := by
  rw [shapeCast_self]
  exact broadcastTo_1b_ab_apply v6 broadcasts_S1x1024_S1024x1024 p q

/-! ## The matrix product -/

/-- The left operand's row coordinate is the output's row. -/
theorem lhs_row (i : S1024x1024.Idx) (κ : dot_S1024x512_S512x1024_S1024x1024_1_0_0_1_n_n.contr.Idx) :
    (dot_S1024x512_S512x1024_S1024x1024_1_0_0_1_n_n.lhsIdx i κ 0).val = (i 0).val := by
  unfold DotDims.lhsIdx
  rw [dif_neg (show ¬(0 : Fin S1024x512.rank) ∈ dot_S1024x512_S512x1024_S1024x1024_1_0_0_1_n_n.lhsBatch by decide),
    dif_pos (show (0 : Fin S1024x512.rank) ∈ dot_S1024x512_S512x1024_S1024x1024_1_0_0_1_n_n.lhsNonContracting by decide)]
  rfl

/-- The left operand's column coordinate is the contraction's one coordinate. -/
theorem lhs_col (i : S1024x1024.Idx) (κ : dot_S1024x512_S512x1024_S1024x1024_1_0_0_1_n_n.contr.Idx) :
    (dot_S1024x512_S512x1024_S1024x1024_1_0_0_1_n_n.lhsIdx i κ 1).val = (κ ⟨0, by decide⟩).val :=
  dot_S1024x512_S512x1024_S1024x1024_1_0_0_1_n_n.lhsIdx_val_of_single rfl i κ

/-- The right operand's row coordinate is the contraction's one coordinate. -/
theorem rhs_row (i : S1024x1024.Idx) (κ : dot_S1024x512_S512x1024_S1024x1024_1_0_0_1_n_n.contr.Idx) :
    (dot_S1024x512_S512x1024_S1024x1024_1_0_0_1_n_n.rhsIdx i κ 0).val = (κ ⟨0, by decide⟩).val :=
  dot_S1024x512_S512x1024_S1024x1024_1_0_0_1_n_n.rhsIdx_val_of_single rfl i κ

/-- The right operand's column coordinate is the output's column. -/
theorem rhs_col (i : S1024x1024.Idx) (κ : dot_S1024x512_S512x1024_S1024x1024_1_0_0_1_n_n.contr.Idx) :
    (dot_S1024x512_S512x1024_S1024x1024_1_0_0_1_n_n.rhsIdx i κ 1).val = (i 1).val := by
  unfold DotDims.rhsIdx
  rw [dif_neg (show ¬(1 : Fin S512x1024.rank) ∈ dot_S1024x512_S512x1024_S1024x1024_1_0_0_1_n_n.rhsBatch by decide),
    dif_pos (show (1 : Fin S512x1024.rank) ∈ dot_S1024x512_S512x1024_S1024x1024_1_0_0_1_n_n.rhsNonContracting by decide)]
  rfl

/-- The product of the `a` block with the transposed `b` block, into zero: at `(p, q)` the inner product of row `p` of
    the first with row `q` of the second. -/
theorem cross_apply (v0 v2 : FVec Ideal S1024x512 .bf16) (p q : Fin 1024) :
    matmul dot_S1024x512_S512x1024_S1024x1024_1_0_0_1_n_n none (shapeCast S1024x512 v0 shapeCasts_S1024x512_S1024x512)
        (transpose S512x1024 [1, 0] (shapeCast S1024x512 v2 shapeCasts_S1024x512_S1024x512) transposes_S1024x512_p1_0_S512x1024)
        (constant S1024x1024 .f32 0x00000000#32) (ix2 p q)
      = ∑ k : Fin 512, v0 (ix2 p k) * v2 (ix2 q k) := by
  rw [shapeCast_self, shapeCast_self]
  simp only [matmul]
  rw [Ideal.matmul_constant_zero_apply, ← Equiv.sum_comp (contrEquiv1 dot_S1024x512_S512x1024_S1024x1024_1_0_0_1_n_n 512 rfl rfl).symm]
  refine Finset.sum_congr rfl fun k _ => ?_
  have hk := contrEquiv1_symm_val dot_S1024x512_S512x1024_S1024x1024_1_0_0_1_n_n 512 rfl rfl k
  have el : dot_S1024x512_S512x1024_S1024x1024_1_0_0_1_n_n.lhsIdx (ix2 p q) ((contrEquiv1 dot_S1024x512_S512x1024_S1024x1024_1_0_0_1_n_n 512 rfl rfl).symm k) = ix2 p k :=
    funext fun a => Fin.ext (by
      match a with
      | ⟨0, _⟩ => exact lhs_row _ _
      | ⟨1, _⟩ => exact (lhs_col _ _).trans hk)
  have er : dot_S1024x512_S512x1024_S1024x1024_1_0_0_1_n_n.rhsIdx (ix2 p q) ((contrEquiv1 dot_S1024x512_S512x1024_S1024x1024_1_0_0_1_n_n 512 rfl rfl).symm k) = ix2 k q :=
    funext fun a => Fin.ext (by
      match a with
      | ⟨0, _⟩ => exact (rhs_row _ _).trans hk
      | ⟨1, _⟩ => exact rhs_col _ _)
  rw [el, er, transpose_ix2_apply]

/-! ## The stored value -/

/-- Entry `(p, q)` of what the body stores, from the four blocks it loaded. -/
theorem stored_apply (v0 v2 : FVec Ideal S1024x512 .bf16) (v4 : FVec Ideal S1024x1 .f32) (v6 : FVec Ideal S1x1024 .f32)
    (p q : Fin 1024) :
    k0_pay1 (F := Ideal) v0 v2 v4 v6 (ix2 p q)
      = Ideal.exp (Ideal.ofBits .f32 0xBF800000#32
          * max (v4 (ix2 p (0 : Fin 1)) + v6 (ix2 (0 : Fin 1) q)
              - Ideal.ofBits .f32 0x40000000#32 * ∑ k : Fin 512, v0 (ix2 p k) * v2 (ix2 q k))
            (Ideal.ofBits .f32 0x00000000#32)) := by
  unfold k0_pay1
  show Ideal.exp (Ideal.ofBits .f32 0xBF800000#32
      * max (broadcastTo S1024x1024 (shapeCast S1024x1 v4 shapeCasts_S1024x1_S1024x1) broadcasts_S1024x1_S1024x1024 (ix2 p q)
            + broadcastTo S1024x1024 (shapeCast S1x1024 v6 shapeCasts_S1x1024_S1x1024) broadcasts_S1x1024_S1024x1024 (ix2 p q)
          - Ideal.ofBits .f32 0x40000000#32
            * matmul dot_S1024x512_S512x1024_S1024x1024_1_0_0_1_n_n none (shapeCast S1024x512 v0 shapeCasts_S1024x512_S1024x512)
                (transpose S512x1024 [1, 0] (shapeCast S1024x512 v2 shapeCasts_S1024x512_S1024x512) transposes_S1024x512_p1_0_S512x1024)
                (constant S1024x1024 .f32 0x00000000#32) (ix2 p q))
        (Ideal.ofBits .f32 0x00000000#32)) = _
  rw [colSpread_apply, rowSpread_apply, cross_apply]

end Cert.KernelIdeal.BlockValue

end
-- ==== Proof.LibHostColumns.lean ====
/-
  A host row sum and its column, read at an index.

  On the host, `sum(x, axis = -1, keepdims = True)` of an [a, b] array is a `reduce` with an add body over the last
  axis, from an initial scalar, followed by a `broadcast_in_dim` that sets the [a] vector of sums as a column [a, 1].
  Over the extended reals:
  • `hostRowSum_apply`: the reduce, read at row `p`, is the initial value plus the finite sum over `k < b` of the array
    at `(p, k)` — the reduced index with the summed coordinate put back is `(p, k)`;
  • `broadcastInDim_a_a1_apply`: the vector set as a column reads, at `(p, u)`, the vector at `p` (for any entry type).
-/
import Idealize.ShloMosaic.Lib.Pipeline.Value
import Idealize.ShloMosaic.Lib.ValueIdx
import Idealize.ShloMosaic.PureOps.Ideal.Laws

noncomputable section

namespace Cert.Lib.HostColumns

open Idealize.ShloMosaic Idealize.ShloMosaic.ValueIdx

/-- The host's sum of an [a, b] array along its last axis, from the initial scalar `init`, read at row `p`. -/
theorem hostRowSum_apply {a b : ℕ} {φ : FTy} (x : FVec Ideal ⟨2, ![a, b]⟩ φ) (init : FVec Ideal ⟨0, ![]⟩ φ)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduceAdd x init h' hu (ix1 p) = init ix0 + ∑ k : Fin b, x (ix2 p k) := by
  unfold Host.reduceAdd
  rw [Ideal.hostReduceAdd_def, Ideal.hostReduceAdd_single h' h]
  refine congrArg₂ (· + ·) (congrArg init (funext fun d => d.elim0)) (Finset.sum_congr rfl fun k _ => ?_)
  exact congrArg x (funext fun d => Fin.ext (by
    match d with
    | ⟨0, _⟩ => rfl
    | ⟨1, _⟩ => rfl))

/-- A vector [a] set as a column [a, 1] by `broadcast_in_dim` along axis 0: entry `(p, u)` is the vector's entry `p`. -/
theorem broadcastInDim_a_a1_apply {α : Type} {a : ℕ} (x : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ ![0] h x (ix2 p u) = x (ix1 p) := by
  refine broadcastInDim_apply _ h x (ix2 p u) (ix1 p) fun d => ?_
  match d with
  | ⟨0, _⟩ =>
    show p.val = if a = 1 then 0 else p.val
    split
    · have := p.isLt; omega
    · rfl

end Cert.Lib.HostColumns

end
-- ==== Proof.Staged.lean ====
/-
  What the region finds: the four arrays the host prepares.

  Before the region, the host squares each array entry by entry, sums every row from the zero word, sets the sums of
  `a` as a column [8192, 1] and those of `b`, by one more transposition, as a row [1, 8192], and changes the float format
  of `a` and `b`. Over the extended reals the change of format is the identity, so the region finds `a` and `b` themselves,
  the column at `(r, 0)` at the squared length of row `r` of `a`, and the row at `(0, q)` at the squared length of row `q`
  of `b`.
-/
import proofs.«141454_j65481071406148_2_alg».proof.Proof.Gen.KernelIdeal.Frame
import proofs.«141454_j65481071406148_2_alg».proof.Proof.GramSpec
import proofs.«141454_j65481071406148_2_alg».proof.Proof.LibHostColumns
import Idealize.ShloMosaic.Lib.StableHlo.Run
import Idealize.ShloMosaic.Lib.ValueLayout

noncomputable section

namespace Cert.KernelIdeal.Staged

open Cert.KernelIdeal Cert.KernelIdeal.Gen Idealize.ShloMosaic Idealize.ShloMosaic.TcCoe Idealize.ShloMosaic.ValueIdx
open Idealize.ShloMosaic.StableHlo Cert.Gram Cert.Lib.HostColumns

variable (m : (ℓ : Loc nD τ sig) → Buf (Elt Ideal) ℓ)

/-- The first set of points as launched on core `c`. -/
abbrev ptsA (c : Dev nD) : Points := m ((c : Thread nD τ).loc main_arg0)
/-- The second set of points as launched on core `c`. -/
abbrev ptsB (c : Dev nD) : Points := m ((c : Thread nD τ).loc main_arg1)

/-- The region finds `a` itself in its first operand: the change of format is the identity. -/
theorem found_a (c : Dev nD) (i : S8192x512.Idx) : (V m c main_v7 : S8192x512.Idx → EReal) i = ptsA m c i := by
  have e : (V m c main_v7 : S8192x512.Idx → EReal) = truncf .bf16 (ptsA m c) bitsLt_bf16_f32 := by
    dsimp only [Gen.V, Gen.hostOps0]; after_results
  rw [e]; rfl

/-- The region finds `b` itself in its second operand. -/
theorem found_b (c : Dev nD) (i : S8192x512.Idx) : (V m c main_v8 : S8192x512.Idx → EReal) i = ptsB m c i := by
  have e : (V m c main_v8 : S8192x512.Idx → EReal) = truncf .bf16 (ptsB m c) bitsLt_bf16_f32 := by
    dsimp only [Gen.V, Gen.hostOps0]; after_results
  rw [e]; rfl

/-- The column operand holds, in row `r`, the squared length of row `r` of `a`. -/
theorem found_asq (c : Dev nD) (r : Fin 8192) (u : Fin 1) :
    (V m c main_v2 : S8192x1.Idx → EReal) (ix2 r u) = sqNorm (ptsA m c) r := by
  have e : (V m c main_v2 : S8192x1.Idx → EReal)
      = broadcastInDim S8192x1 ![0] bcast_S8192_S8192x1_0
          (Host.reduceAdd (mulf (ptsA m c) (ptsA m c)) (constant (F := Ideal) S_ .f32 0x00000000#32)
            reducesTo_S8192x512_S8192_d1 h_S_) := by
    dsimp only [Gen.V, Gen.hostOps0]; after_results
  rw [e]
  refine (broadcastInDim_a_a1_apply _ bcast_S8192_S8192x1_0 r u).trans ?_
  refine (hostRowSum_apply _ _ reducesTo_S8192x512_S8192_d1 (by decide) h_S_ r).trans ?_
  rfl

/-- The row operand holds, in column `q`, the squared length of row `q` of `b`: the column of sums, transposed. -/
theorem found_bsq (c : Dev nD) (u : Fin 1) (q : Fin 8192) :
    (V m c main_v6 : S1x8192.Idx → EReal) (ix2 u q) = sqNorm (ptsB m c) q := by
  have e : (V m c main_v6 : S1x8192.Idx → EReal)
      = transpose S1x8192 [1, 0] (broadcastInDim S8192x1 ![0] bcast_S8192_S8192x1_0
          (Host.reduceAdd (mulf (ptsB m c) (ptsB m c)) (constant (F := Ideal) S_ .f32 0x00000000#32)
            reducesTo_S8192x512_S8192_d1 h_S_)) transposes_S8192x1_S1x8192_1_0 := by
    dsimp only [Gen.V, Gen.hostOps0]; after_results
  rw [e]
  refine (transpose_ix2_apply _ transposes_S8192x1_S1x8192_1_0 u q).trans ?_
  refine (broadcastInDim_a_a1_apply _ bcast_S8192_S8192x1_0 q u).trans ?_
  refine (hostRowSum_apply _ _ reducesTo_S8192x512_S8192_d1 (by decide) h_S_ q).trans ?_
  rfl

end Cert.KernelIdeal.Staged

end
-- ==== Proof.Tiles.lean ====
/-
  From the 64 blocks to the whole kernel matrix.

  The grid is 8 × 8. At the point with block coordinates `(I, J)` the body is given rows `1024·I … 1024·I + 1023` of `a`,
  rows `1024·J … 1024·J + 1023` of `b`, the same rows of the column of squared lengths of `a` and the same columns of the
  row of squared lengths of `b`, and what it stores is written back as block `(I, J)` of the result. Entry `(p, q)` of
  what it stores therefore depends on row `1024·I + p` of `a` and row `1024·J + q` of `b` only, and is the kernel
  matrix's entry `(1024·I + p, 1024·J + q)`: every point writes its own block of ONE matrix. The 64 blocks tile the
  8192 × 8192 result — the point that covers `(r, s)` has `I = r / 1024`, `J = s / 1024` — so after the run the result
  array is the kernel matrix of the two arrays as launched.
-/
import proofs.«141454_j65481071406148_2_alg».proof.Proof.Gen.KernelIdeal.Value
import proofs.«141454_j65481071406148_2_alg».proof.Proof.BlockValue
import proofs.«141454_j65481071406148_2_alg».proof.Proof.Staged

noncomputable section

namespace Cert.KernelIdeal.Tiles

open Cert.KernelIdeal Cert.KernelIdeal.Gen Idealize.ShloMosaic Idealize.ShloMosaic.TcCoe Idealize.ShloMosaic.ValueIdx
open Idealize.SL.Sem Cert.Gram Cert.KernelIdeal.Staged Cert.KernelIdeal.BlockValue
open Idealize.ShloMosaic.Pipeline (Dat)

variable (m : (ℓ : Loc nD τ sig) → Buf (Elt Ideal) ℓ) (ρ : Dev nD → PrngReg)

/-! ## One stored entry is one entry of the kernel matrix -/

/-- If the four blocks the body loaded hold row `P` of `a` in their row `p` and row `Q` of `b` in their row `q` — the
    points, and their squared lengths — then entry `(p, q)` of what the body stores is entry `(P, Q)` of the kernel matrix. -/
theorem stored_entry (A B : Points) (x0 x1 : FVec Ideal S1024x512 .bf16) (x2 : FVec Ideal S1024x1 .f32)
    (x3 : FVec Ideal S1x1024 .f32) (P Q : Fin 8192) (p q : Fin 1024)
    (h0 : ∀ k : Fin 512, x0 (ix2 p k) = A (ix2 P k)) (h1 : ∀ k : Fin 512, x1 (ix2 q k) = B (ix2 Q k))
    (h2 : x2 (ix2 p (0 : Fin 1)) = sqNorm A P) (h3 : x3 (ix2 (0 : Fin 1) q) = sqNorm B Q) :
    k0_pay1 (F := Ideal) x0 x1 x2 x3 (ix2 p q) = entry A B P Q := by
  rw [stored_apply, h2, h3]
  simp only [h0, h1]
  rfl

/-! ## The grid's index maps -/

theorem zero_offsets : (![0, 0] : Fin 2 → Nat) = fun _ => 0 := funext fun a => by fin_cases a <;> rfl

/-- Decided over the 64 points: the `a` block and the column block move with the output's block row, the `b` block and the
    row block with its block column, and both block coordinates stay below 8. -/
theorem tile_facts : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = win0_4.index t (0 : Fin 2) ∧ win0_2.index t (1 : Fin 2) = 0
    ∧ win0_3.index t (0 : Fin 2) = 0 ∧ win0_3.index t (1 : Fin 2) = win0_4.index t (1 : Fin 2)
    ∧ win0_4.index t (0 : Fin 2) ≤ 7 ∧ win0_4.index t (1 : Fin 2) ≤ 7 :=
  (by decide +kernel : ∀ t : Fin grid0.N, _)

/-- Every one of the 8 × 8 blocks is some point's. -/
theorem tile_onto : ∀ (I J : Fin 8), ∃ t : Fin cfg0.N, win0_4.index t = ![I.val, J.val] :=
  (by decide +kernel : ∀ (I J : Fin 8), ∃ t : Fin grid0.N, win0_4.index t = ![I.val, J.val])

/-! ## The input blocks at a point, as rows of the arguments -/

/-- The first operand's block at point `t` holds, in its row `y 0`, row `1024·I + y 0` of `a`. -/
theorem block_a (c : Dev nD) (t : Fin cfg0.N) (y : S1024x512.Idx) (i : S8192x512.Idx)
    (hr : (i 0).val = win0_4.index t (0 : Fin 2) * 1024 + (y 0).val) (hc : (i 1).val = (y 1).val) :
    (iblk m c 0 t : S1024x512.Idx → EReal) y = ptsA m c i := by
  obtain ⟨e0, e1, -⟩ := tile_facts t
  unfold iblk
  rw [View.read_apply]
  show (V m c main_v7 : S8192x512.Idx → EReal) _ = _
  rw [found_a]
  refine congrArg (ptsA m c) (funext fun a => Fin.ext ?_)
  match a with
  | ⟨0, _⟩ => show win0_0.index t (0 : Fin 2) * 1024 + 1 * (y 0).val = (i 0).val; omega
  | ⟨1, _⟩ => show win0_0.index t (1 : Fin 2) * 512 + 1 * (y 1).val = (i 1).val; omega

/-- The second operand's block at point `t` holds, in its row `y 0`, row `1024·J + y 0` of `b`. -/
theorem block_b (c : Dev nD) (t : Fin cfg0.N) (y : S1024x512.Idx) (i : S8192x512.Idx)
    (hr : (i 0).val = win0_4.index t (1 : Fin 2) * 1024 + (y 0).val) (hc : (i 1).val = (y 1).val) :
    (iblk m c 1 t : S1024x512.Idx → EReal) y = ptsB m c i := by
  obtain ⟨-, -, e0, e1, -⟩ := tile_facts t
  unfold iblk
  rw [View.read_apply]
  show (V m c main_v8 : S8192x512.Idx → EReal) _ = _
  rw [found_b]
  refine congrArg (ptsB m c) (funext fun a => Fin.ext ?_)
  match a with
  | ⟨0, _⟩ => show win0_1.index t (0 : Fin 2) * 1024 + 1 * (y 0).val = (i 0).val; omega
  | ⟨1, _⟩ => show win0_1.index t (1 : Fin 2) * 512 + 1 * (y 1).val = (i 1).val; omega

/-- The column operand's block at point `t` holds, in its row `y 0`, the squared length of row `1024·I + y 0` of `a`. -/
theorem block_asq (c : Dev nD) (t : Fin cfg0.N) (y : S1024x1.Idx) (P : Fin 8192)
    (hP : P.val = win0_4.index t (0 : Fin 2) * 1024 + (y 0).val) :
    (iblk m c 2 t : S1024x1.Idx → EReal) y = sqNorm (ptsA m c) P := by
  obtain ⟨-, -, -, -, e0, e1, -⟩ := tile_facts t
  unfold iblk
  rw [View.read_apply]
  show (V m c main_v2 : S8192x1.Idx → EReal) _ = _
  have hy1 : (y 1).val < 1 := (y 1).isLt
  refine (congrArg (V m c main_v2 : S8192x1.Idx → EReal) (?_ : _ = ix2 P (0 : Fin 1))).trans (found_asq m c P 0)
  funext a
  apply Fin.ext
  match a with
  | ⟨0, _⟩ => show win0_2.index t (0 : Fin 2) * 1024 + 1 * (y 0).val = P.val; omega
  | ⟨1, _⟩ => show win0_2.index t (1 : Fin 2) * 1 + 1 * (y 1).val = 0; omega

/-- The row operand's block at point `t` holds, in its column `y 1`, the squared length of row `1024·J + y 1` of `b`. -/
theorem block_bsq (c : Dev nD) (t : Fin cfg0.N) (y : S1x1024.Idx) (Q : Fin 8192)
    (hQ : Q.val = win0_4.index t (1 : Fin 2) * 1024 + (y 1).val) :
    (iblk m c 3 t : S1x1024.Idx → EReal) y = sqNorm (ptsB m c) Q := by
  obtain ⟨-, -, -, -, -, -, e0, e1, -⟩ := tile_facts t
  unfold iblk
  rw [View.read_apply]
  show (V m c main_v6 : S1x8192.Idx → EReal) _ = _
  have hy0 : (y 0).val < 1 := (y 0).isLt
  refine (congrArg (V m c main_v6 : S1x8192.Idx → EReal) (?_ : _ = ix2 (0 : Fin 1) Q)).trans (found_bsq m c 0 Q)
  funext a
  apply Fin.ext
  match a with
  | ⟨0, _⟩ => show win0_3.index t (0 : Fin 2) * 1 + 1 * (y 0).val = 0; omega
  | ⟨1, _⟩ => show win0_3.index t (1 : Fin 2) * 1024 + 1 * (y 1).val = Q.val; omega

/-! ## What a point writes back -/

/-- WHAT POINT `t` WRITES BACK is block `t` of the kernel matrix of the two arrays as launched. -/
theorem flushed_eq (c : Dev nD) (t : Fin cfg0.N) :
    (dats m 0 c).flushed 4 t = ((cfg0.win 4).blk t).view.read (Elt Ideal) (gram (ptsA m c) (ptsB m c)) := by
  rw [Cert.KernelIdeal.Value.flushed4]
  unfold out0_4
  rw [View.canon_unit_zero zero_offsets]
  simp only [View.ld_unit_zero (S := S1024x512) zero_offsets, View.ld_unit_zero (S := S1024x1) zero_offsets,
    View.ld_unit_zero (S := S1x1024) zero_offsets]
  funext j
  show k0_pay1 (F := Ideal) (iblk m c 0 t) (iblk m c 1 t) (iblk m c 2 t) (iblk m c 3 t) j
    = entry (ptsA m c) (ptsB m c) ((((cfg0.win 4).blk t).view.emb j) 0) ((((cfg0.win 4).blk t).view.emb j) 1)
  refine (congrArg (k0_pay1 (F := Ideal) (iblk m c 0 t) (iblk m c 1 t) (iblk m c 2 t) (iblk m c 3 t)) (eq_ix2 j)).trans ?_
  refine stored_entry (ptsA m c) (ptsB m c) (iblk m c 0 t) (iblk m c 1 t) (iblk m c 2 t) (iblk m c 3 t)
    ((((cfg0.win 4).blk t).view.emb j) 0) ((((cfg0.win 4).blk t).view.emb j) 1) (j 0) (j 1) ?_ ?_ ?_ ?_
  · intro k
    refine block_a m c t (ix2 (j 0) k) (ix2 ((((cfg0.win 4).blk t).view.emb j) 0) k) ?_ rfl
    show win0_4.index t (0 : Fin 2) * 1024 + 1 * (j 0).val = win0_4.index t (0 : Fin 2) * 1024 + (j 0).val
    omega
  · intro k
    refine block_b m c t (ix2 (j 1) k) (ix2 ((((cfg0.win 4).blk t).view.emb j) 1) k) ?_ rfl
    show win0_4.index t (1 : Fin 2) * 1024 + 1 * (j 1).val = win0_4.index t (1 : Fin 2) * 1024 + (j 1).val
    omega
  · refine block_asq m c t (ix2 (j 0) (0 : Fin 1)) ((((cfg0.win 4).blk t).view.emb j) 0) ?_
    show win0_4.index t (0 : Fin 2) * 1024 + 1 * (j 0).val = win0_4.index t (0 : Fin 2) * 1024 + (j 0).val
    omega
  · refine block_bsq m c t (ix2 (0 : Fin 1) (j 1)) ((((cfg0.win 4).blk t).view.emb j) 1) ?_
    show win0_4.index t (1 : Fin 2) * 1024 + 1 * (j 1).val = win0_4.index t (1 : Fin 2) * 1024 + (j 1).val
    omega

/-! ## The blocks tile the result -/

/-- An index of the result is in point `t`'s block iff each coordinate is in the block's range on its axis. -/
theorem mem_tile (t : Fin cfg0.N) (i : S8192x8192.Idx) :
    i ∈ ((cfg0.win 4).blk t).view.set
      ↔ ∀ a : Fin 2, win0_4.index t a * S1024x1024.size a ≤ (i a).val
          ∧ (i a).val < win0_4.index t a * S1024x1024.size a + S1024x1024.size a := by
  show i ∈ ((View.whole main_v9).slice (win0_4.rect t)).set ↔ _
  rw [View.set_slice_whole, Rect.mem_set_unit]
  exact Iff.rfl

/-- Every index of the result is in the block of the point with block coordinates `(r / 1024, s / 1024)`. -/
theorem tiles_cover (i : S8192x8192.Idx) :
    ∃ t : Fin cfg0.N, (cfg0.win 4).flush t = true ∧ i ∈ ((cfg0.win 4).blk t).view.set := by
  have hi0 : (i 0).val < 8192 := (i 0).isLt
  have hi1 : (i 1).val < 8192 := (i 1).isLt
  obtain ⟨t, ht⟩ := tile_onto ⟨(i 0).val / 1024, by omega⟩ ⟨(i 1).val / 1024, by omega⟩
  have q0 : win0_4.index t (0 : Fin 2) = (i 0).val / 1024 := congrFun ht 0
  have q1 : win0_4.index t (1 : Fin 2) = (i 1).val / 1024 := congrFun ht 1
  refine ⟨t, flush0_4 t, ?_⟩
  rw [mem_tile]
  intro a
  match a with
  | ⟨0, _⟩ =>
    show win0_4.index t (0 : Fin 2) * 1024 ≤ (i 0).val ∧ (i 0).val < win0_4.index t (0 : Fin 2) * 1024 + 1024
    omega
  | ⟨1, _⟩ =>
    show win0_4.index t (1 : Fin 2) * 1024 ≤ (i 1).val ∧ (i 1).val < win0_4.index t (1 : Fin 2) * 1024 + 1024
    omega

/-! ## The result array, and the run -/

/-- After the run the result array is the kernel matrix of the two arrays as launched. -/
theorem result_is_gram (c : Dev nD) : (dats m 0 c).arrAt 4 cfg0.N = gram (ptsA m c) (ptsB m c) :=
  (dats m 0 c).arrAt_eq_of_cover 4 (gram (ptsA m c) (ptsB m c)) (fun t _ => flushed_eq m c t) tiles_cover

/-- Every weakly fair execution of the kernel's program terminates with the result array at the kernel matrix of its
    two arguments, the arguments unchanged. -/
theorem run : θ_run defs (onTc (τ := τ) (main (F := Ideal))) ⟨m, fun _ => 0, ρ⟩ fun r => ∀ c : Dev nD,
      r.2.mem ((c : Thread nD τ).loc main_v9) = gram (ptsA m c) (ptsB m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result_is_gram m c), (h c).2⟩)
    (Cert.KernelIdeal.Value.run_blocks m ρ)

end Cert.KernelIdeal.Tiles

end
-- ==== Proof.lean ====
/-
  The Gaussian kernel matrix of two point sets: a tiled kernel against the plain formula.

  For two arrays `a`, `b` of 8192 points with 512 coordinates, both programs compute

      K[p, q] = exp ( −1 · max ( (‖a_p‖² + ‖b_q‖²) − 2 · ⟨a_p, b_q⟩ , 0 ) ),

  the squared distance ‖a_p − b_q‖² expanded, clamped at zero, negated and exponentiated (`Cert.Gram.gram`).

  The reference forms the two vectors of squared lengths, one whole 8192 × 8192 product of `a` with `b` contracted over
  the coordinates, and the expression entry by entry. The kernel forms the squared lengths on the host, as a column
  and as a row, changes the float format of `a` and `b` (the identity over the extended reals), and then covers the
  result by an 8 × 8 grid of 1024 × 1024 blocks: at block `(I, J)` it multiplies 1024 rows of `a` by the transpose of 1024
  rows of `b` and evaluates the same expression on the block.

  Over the extended reals the two are one function of the arguments, entry by entry, with no algebra between them:
  each entry of each side is literally the expression above, in the same grouping, with the same three scalar words.
  What the proof shows is where each piece comes from — that the reference's stages, read at `(p, q)`, use row `p` of `a`
  and row `q` of `b`; that the block at `(I, J)` holds rows `1024·I + p` and `1024·J + q`; that the 64 blocks tile the
  result. Finiteness of the inputs is not used.

  The three frame claims are the generated runs. The idealization rewrote no operation, so there is nothing to
  preserve beyond the program's own text.
-/
import proofs.«141454_j65481071406148_2_alg».proof.Defs
import proofs.«141454_j65481071406148_2_alg».proof.Proof.Gen.Kernel
import proofs.«141454_j65481071406148_2_alg».proof.Proof.Gen.Kernel.Skeleton
import proofs.«141454_j65481071406148_2_alg».proof.Proof.Gen.Kernel.Launch
import proofs.«141454_j65481071406148_2_alg».proof.Proof.Gen.Kernel.Points
import proofs.«141454_j65481071406148_2_alg».proof.Proof.Gen.Kernel.Frame
import proofs.«141454_j65481071406148_2_alg».proof.Proof.Gen.KernelIdeal
import proofs.«141454_j65481071406148_2_alg».proof.Proof.Gen.KernelIdeal.Skeleton
import proofs.«141454_j65481071406148_2_alg».proof.Proof.Gen.KernelIdeal.Launch
import proofs.«141454_j65481071406148_2_alg».proof.Proof.Gen.KernelIdeal.Points
import proofs.«141454_j65481071406148_2_alg».proof.Proof.Gen.KernelIdeal.Frame
import proofs.«141454_j65481071406148_2_alg».proof.Proof.Gen.ReferenceIdeal
import proofs.«141454_j65481071406148_2_alg».proof.Proof.Gen.KernelIdeal.Value
import proofs.«141454_j65481071406148_2_alg».proof.Proof.Gen.ReferenceIdeal.Run
import proofs.«141454_j65481071406148_2_alg».proof.Proof.Gen.ReferenceIdeal.Read
import proofs.«141454_j65481071406148_2_alg».proof.Proof.Gen.Pre_finite_inputs
import proofs.«141454_j65481071406148_2_alg».proof.Proof.RefGram
import proofs.«141454_j65481071406148_2_alg».proof.Proof.Tiles
import Idealize.ShloMosaic.Adequacy
import Idealize.ShloMosaic.Init

noncomputable section

namespace Cert.Proof

open Idealize.ShloMosaic Idealize.ShloMosaic.TcCoe Idealize.SL.Sem

/-- The kernel's program as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From arguments that agree, the kernel's result array and the reference's both end at the kernel matrix of the
    arguments: the tiled run on one side, the reference's last stage on the other. -/
theorem algebraic : Cert.algebraic_KernelIdeal_ReferenceIdeal := by
  intro m ρ m' ρ' _ hagree
  refine ⟨fun c => Cert.Gram.gram (Cert.KernelIdeal.Staged.ptsA m c) (Cert.KernelIdeal.Staged.ptsB m c),
    Cert.KernelIdeal.Tiles.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v17_eq, Cert.ReferenceIdeal.RefValue.ref_is_gram, (hagree c).1,
    (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
